-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S4x2048 : Shape := ⟨2, ![4, 2048]⟩
abbrev S1x4096x256 : Shape := ⟨3, ![1, 4096, 256]⟩
abbrev S4x256 : Shape := ⟨2, ![4, 256]⟩
abbrev S4096x256 : Shape := ⟨2, ![4096, 256]⟩
abbrev S1x256 : Shape := ⟨2, ![1, 256]⟩
abbrev S256 : Shape := ⟨1, ![256]⟩
abbrev S8x256 : Shape := ⟨2, ![8, 256]⟩
abbrev S1x8x256 : Shape := ⟨3, ![1, 8, 256]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S4x2048, .f32⟩
  | .hbm, ⟨3, _⟩ => ⟨S4x4096x2048, .f32⟩
  | .local _ .vmem, ⟨0, _⟩ => ⟨S1x4096x256, .f32⟩
  | .local _ .vmem, ⟨1, _⟩ => ⟨S1x4096x256, .f32⟩
  | .local _ .vmem, ⟨2, _⟩ => ⟨S4x256, .f32⟩
  | .local _ .vmem, ⟨3, _⟩ => ⟨S4x256, .f32⟩
  | .local _ .vmem, ⟨4, _⟩ => ⟨S1x4096x256, .f32⟩
  | .local _ .vmem, ⟨5, _⟩ => ⟨S1x4096x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x4_S4x2048_1_0 : S2048x4.Transposes [1, 0] S4x2048
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S4x256_S1x256_0_0 : ∀ a, (![0, 0] : Fin 2 → Nat) a + S1x256.size a ≤ S4x256.size a
  h_S1x256 : 0 < S1x256.numel
  shapeCasts_S1x256_S256 : S1x256.ShapeCasts S256
  rotates_S4096x256_d0 : S4096x256.Rotates 0 none
  shapeCasts_S256_S1x256 : S256.ShapeCasts S1x256
  broadcasts_S1x256_S4096x256 : S1x256.Broadcasts S4096x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  shapeCasts_S4096x256_S1x4096x256 : S4096x256.ShapeCasts S1x4096x256
  iota_S8x256_d0_w32 : S8x256.Iotas .tc 32 [0]
  slices_S4096x256_o0_0_S8x256 : S4096x256.Slices ![0, 0] S8x256
  rotates_S8x256_d0 : S8x256.Rotates 0 none
  broadcasts_S1x256_S8x256 : S1x256.Broadcasts S8x256
  inb_S1x4096x256_S1x8x256_0_0_0 : ∀ a, (![0, 0, 0] : Fin 3 → Nat) a + S1x8x256.size a ≤ S1x4096x256.size a
  h_S1x8x256 : 0 < S1x8x256.numel
  shapeCasts_S1x8x256_S8x256 : S1x8x256.ShapeCasts S8x256
  shapeCasts_S8x256_S1x8x256 : S8x256.ShapeCasts S1x8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x2048.size a
  hwx0_0 : ∀ i : grid0.Coords, EltTy.bits .f32 = 32 ∨ (Rect.block (s := S4x4096x2048) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x2048.size a
  hwx0_1 : ∀ i : grid0.Coords, EltTy.bits .f32 = 32 ∨ (Rect.block (s := S4x2048) S4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S4x4096x2048.size a
  hwx0_2 : ∀ i : grid0.Coords, EltTy.bits .f32 = 32 ∨ (Rect.block (s := S4x4096x2048) S1x4096x256.size (cc0_transform_2 i) (hinb0_2 i)).WholeWords (EltTy.packing .f32)

variable [Facts₀]

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S2048x1, .f32⟩
  | .hbm, ⟨16, _⟩ => ⟨S2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S2048x1, .f32⟩
  | .hbm, ⟨23, _⟩ => ⟨S2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S2048x1, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1

variable [Facts₀]

class Facts : Prop extends Facts₀ where

variable [Facts]
-- ==== Proof.ConvSpec.lean ====
/-
  The function both programs compute, on the extended reals.

  A sequence x[b, t, d] — 4 batches, 4096 time steps, 2048 channels — is filtered along time, channel by channel,
  with four taps w[d, 0], …, w[d, 3], CAUSALLY: the output at time t sees x at the times t-3, t-2, t-1 and t, and a
  time before the start of the sequence contributes zero. The four products are added from the oldest to the newest
  onto a zero,
      a(b, t, d) = (((0 + x̃(b, t-3, d) · w(d, 0)) + x̃(b, t-2, d) · w(d, 1)) + x̃(b, t-1, d) · w(d, 2)) + x(b, t, d) · w(d, 3),
  x̃ being x extended by zero to negative times, and the result is a · σ(a) with σ(a) = 1 / (1 + e^(-a)), the
  logistic function.

  The same function is also stated for ONE TILE: 4096 time steps of 256 channels of one batch, X[0, r, l], and the
  four tap rows W[k, l] of those channels. A tile holds ALL the time steps of its channels, so the shift along time
  never leaves the tile: the array's function restricted to a tile is the tile's function of the array's tiles
  (`convArray_tile`).
-/
import Idealize.ShloMosaic.PureOps.Ideal
import Idealize.ShloMosaic.Lib.ValueIdx

noncomputable section

namespace Cert.CausalConv

open Idealize.ShloMosaic Idealize.ShloMosaic.ValueIdx

/-- The sequence array: batch, time, channel. -/
abbrev SeqShape : Shape := ⟨3, ![4, 4096, 2048]⟩
/-- The taps: channel, tap. -/
abbrev TapShape : Shape := ⟨2, ![2048, 4]⟩
/-- One tile of the sequence: one batch, every time step, 256 channels. -/
abbrev TileShape : Shape := ⟨3, ![1, 4096, 256]⟩
/-- The taps of a tile's channels, tap by tap: tap, channel. -/
abbrev TileTapShape : Shape := ⟨2, ![4, 256]⟩

/-- a · σ(a). -/
def silu (a : EReal) : EReal := a * Ideal.logistic a

/-- Four products added from the oldest sample to the newest onto a zero. -/
def tapSum (p3 p2 p1 p0 w0 w1 w2 w3 : EReal) : EReal := (((0 + p3 * w0) + p2 * w1) + p1 * w2) + p0 * w3

/-- The sample `s` steps before time `t` of batch `b`, channel `d`; zero before the start of the sequence. -/
def past (x : FVec Ideal SeqShape .f32) (b : Fin 4) (t : Fin 4096) (d : Fin 2048) (s : Nat) : EReal :=
  if s ≤ t.val then x (ix3 b ⟨t.val - s, by have := t.isLt; omega⟩ d) else 0

/-- The sample zero steps back is the sample itself. -/
theorem past_zero (x : FVec Ideal SeqShape .f32) (b : Fin 4) (t : Fin 4096) (d : Fin 2048) :
    past x b t d 0 = x (ix3 b t d) := by
  unfold past; rw [if_pos (Nat.zero_le _)]; rfl

/-- The filtered and activated sequence at batch `b`, time `t`, channel `d`. -/
def conv (x : FVec Ideal SeqShape .f32) (w : FVec Ideal TapShape .f32) (b : Fin 4) (t : Fin 4096) (d : Fin 2048) : EReal :=
  silu (tapSum (past x b t d 3) (past x b t d 2) (past x b t d 1) (x (ix3 b t d))
    (w (ix2 d 0)) (w (ix2 d 1)) (w (ix2 d 2)) (w (ix2 d 3)))

/-- … as an array. -/
def convArray (x : FVec Ideal SeqShape .f32) (w : FVec Ideal TapShape .f32) : FVec Ideal SeqShape .f32 :=
  fun i => conv x w (i 0) (i 1) (i 2)

/-! ## One tile -/

/-- The tile's sample `s` steps before row `r`, lane `l`; zero before the first row. -/
def pastT (X : FVec Ideal TileShape .f32) (r : Fin 4096) (l : Fin 256) (s : Nat) : EReal :=
  if s ≤ r.val then X (ix3 0 ⟨r.val - s, by have := r.isLt; omega⟩ l) else 0

/-- The tile's filtered and activated value at row `r`, lane `l`. -/
def convT (X : FVec Ideal TileShape .f32) (W : FVec Ideal TileTapShape .f32) (r : Fin 4096) (l : Fin 256) : EReal :=
  silu (tapSum (pastT X r l 3) (pastT X r l 2) (pastT X r l 1) (X (ix3 0 r l))
    (W (ix2 0 l)) (W (ix2 1 l)) (W (ix2 2 l)) (W (ix2 3 l)))

/-- … as a tile. -/
def convTile (X : FVec Ideal TileShape .f32) (W : FVec Ideal TileTapShape .f32) : FVec Ideal TileShape .f32 :=
  fun y => convT X W (y 1) (y 2)

/-- THE ARRAY'S FUNCTION ON A TILE IS THE TILE'S FUNCTION: if the tile `X` is batch `b`, channels `256 q … 256 q + 255` of
    `x` and `W` the taps of those channels, then at row `r`, lane `l` the tile's value is the array's at
    (b, r, 256 q + l). The time shift keeps the batch and the channel, so it reads the same tile. -/
theorem conv_tile (x : FVec Ideal SeqShape .f32) (w : FVec Ideal TapShape .f32)
    (X : FVec Ideal TileShape .f32) (W : FVec Ideal TileTapShape .f32) (b : Fin 4) (q : Fin 8)
    (hX : ∀ (r : Fin 4096) (l : Fin 256), X (ix3 0 r l) = x (ix3 b r ⟨256 * q.val + l.val, by have := q.isLt; have := l.isLt; omega⟩))
    (hW : ∀ (k : Fin 4) (l : Fin 256), W (ix2 k l) = w (ix2 ⟨256 * q.val + l.val, by have := q.isLt; have := l.isLt; omega⟩ k))
    (r : Fin 4096) (l : Fin 256) :
    convT X W r l = conv x w b r ⟨256 * q.val + l.val, by have := q.isLt; have := l.isLt; omega⟩ := by
  unfold convT conv pastT past
  simp only [hX, hW]

end Cert.CausalConv

end
-- ==== Proof.TilePayloads.lean ====
/-
  What the kernel's two stores hold, entry by entry, on the extended reals.

  The body is handed one tile X (4096 time steps × 256 channels of one batch) and the four tap rows of those
  channels. It stores twice into the output tile.

  * First the whole tile: the four products of X moved DOWN the rows by 3, 2, 1 and 0 — a rotation, so the first rows
    receive the LAST rows of the tile — with the tap rows, added onto zero, then a · σ(a). From row 3 on the rotation
    reads the row `r - s` of the same tile, and the entry is the causal filter's value (`main_payload_apply`).
  * Then rows 0 … 7 again, from the first eight rows of X rotated among themselves, with every entry whose source row
    would be negative replaced by zero (the row number compared with the shift). Among eight rows a shift of at most 3
    from a row `r ≥ s` stays inside them, so here the entry is the causal filter's value on EVERY one of the eight
    rows, the first three included (`top_payload_apply`).
-/
import proofs.«162641_j54941221651145_2_alg».proof.Proof.Gen.KernelIdeal.Skeleton
import proofs.«162641_j54941221651145_2_alg».proof.Proof.ConvSpec
import Idealize.ShloMosaic.Lib.ValueLayout
import Idealize.ShloMosaic.Lib.KernelVsHost
import Idealize.ShloMosaic.PureOps.Ideal.Laws

noncomputable section

namespace Cert.KernelIdeal.Payloads

open Cert.KernelIdeal Cert.KernelIdeal.Gen Idealize.ShloMosaic Idealize.ShloMosaic.ValueIdx Cert.CausalConv

/-! ## Reading a sum, a product and the activation at an entry -/

theorem add_at {s : Shape} (u v : FVec Ideal s .f32) (i : s.Idx) (U V : EReal) (hu : u i = U) (hv : v i = V) :
    addf u v i = U + V := by
  show u i + v i = _; rw [hu, hv]

theorem mul_at {s : Shape} (u v : FVec Ideal s .f32) (i : s.Idx) (U V : EReal) (hu : u i = U) (hv : v i = V) :
    mulf u v i = U * V := by
  show u i * v i = _; rw [hu, hv]

theorem silu_at {s : Shape} (a : FVec Ideal s .f32) (i : s.Idx) (A : EReal) (ha : a i = A) :
    mulf a (logistic a) i = silu A := by
  show a i * Ideal.logistic (a i) = _; rw [ha]; rfl

/-! ## Rows moved down by a rotation -/

/-- A matrix rotated down its rows by `s` reads, at row `r`, the row `(r + n - s) mod n`. -/
theorem rotate_rows_apply {α : Type} {n m : Nat} (y : (⟨2, ![n, m]⟩ : Shape).Idx → α) (sb : BitVec 32) (s : Nat)
    (hsb : sb.toNat = s) (hs : s < n) (h : (⟨2, ![n, m]⟩ : Shape).Rotates 0 none) (r : Fin n) (l : Fin m) (r' : Fin n)
    (hr' : r'.val = (r.val + n - s) % n) : dynamicRotate 0 sb none y h (ix2 r l) = y (ix2 r' l) :=
  dynamicRotate_apply 0 sb y h (ix2 r l) (ix2 r' l) (fun b => match b with
    | ⟨0, _⟩ => by
        show r'.val = if (0 : Fin 2) = 0 then (r.val + n - sb.toNat % n) % n else r.val
        rw [if_pos rfl, hsb, Nat.mod_eq_of_lt hs, hr']
    | ⟨1, _⟩ => by
        show l.val = if (1 : Fin 2) = 0 then _ else l.val
        rw [if_neg (by decide)])

/-- A tap row, cast to a vector and back and broadcast down the rows, reads the row's lane. -/
theorem tap_row_apply {n : Nat} (w : FVec Ideal S1x256 .f32) (h1 : S1x256.ShapeCasts S256) (h2 : S256.ShapeCasts S1x256)
    (h3 : S1x256.Broadcasts ⟨2, ![n, 256]⟩) (r : Fin n) (l : Fin 256) :
    broadcastTo ⟨2, ![n, 256]⟩ (shapeCast S1x256 (shapeCast S256 w h1) h2) h3 (ix2 r l) = w (ix2 0 l) :=
  (broadcastTo_1b_ab_apply _ h3 r l).trans (congrFun (shapeCast_shapeCast w h1 h2) _)

/-! ## The whole-tile store -/

/-- THE WHOLE-TILE STORE FROM ROW 3 ON is the causal filter of the tile. -/
theorem main_payload_apply (X : FVec Ideal S1x4096x256 .f32) (w0 w1 w2 w3 : FVec Ideal S1x256 .f32)
    (W : FVec Ideal TileTapShape .f32)
    (h0 : ∀ l, w0 (ix2 0 l) = W (ix2 0 l)) (h1 : ∀ l, w1 (ix2 0 l) = W (ix2 1 l))
    (h2 : ∀ l, w2 (ix2 0 l) = W (ix2 2 l)) (h3 : ∀ l, w3 (ix2 0 l) = W (ix2 3 l))
    (r : Fin 4096) (l : Fin 256) (hr : 3 ≤ r.val) :
    k0_pay3 (F := Ideal) X w0 w1 w2 w3 (ix3 0 r l) = convT X W r l := by
  have hlt := r.isLt
  unfold k0_pay3 k0_pay2 convT pastT tapSum
  rw [if_pos hr, if_pos (show 2 ≤ r.val by omega), if_pos (show 1 ≤ r.val by omega)]
  refine (shapeCast_ab_1ab_apply _ _ 0 r l).trans ?_
  refine silu_at _ _ _ ?_
  refine add_at _ _ _ _ _ (add_at _ _ _ _ _ (add_at _ _ _ _ _ (add_at _ _ _ _ _ ?z ?p3) ?p2) ?p1) ?p0
  case z => exact Ideal.ofBits_zero_f32
  case p3 =>
    exact mul_at _ _ _ _ _
      ((rotate_rows_apply _ 3#32 3 rfl (by decide) _ r l ⟨r.val - 3, by omega⟩ (by show r.val - 3 = (r.val + 4096 - 3) % 4096; omega)).trans
        (shapeCast_1ab_ab_apply X _ _ l))
      ((tap_row_apply w0 _ _ _ r l).trans (h0 l))
  case p2 =>
    exact mul_at _ _ _ _ _
      ((rotate_rows_apply _ 2#32 2 rfl (by decide) _ r l ⟨r.val - 2, by omega⟩ (by show r.val - 2 = (r.val + 4096 - 2) % 4096; omega)).trans
        (shapeCast_1ab_ab_apply X _ _ l))
      ((tap_row_apply w1 _ _ _ r l).trans (h1 l))
  case p1 =>
    exact mul_at _ _ _ _ _
      ((rotate_rows_apply _ 1#32 1 rfl (by decide) _ r l ⟨r.val - 1, by omega⟩ (by show r.val - 1 = (r.val + 4096 - 1) % 4096; omega)).trans
        (shapeCast_1ab_ab_apply X _ _ l))
      ((tap_row_apply w2 _ _ _ r l).trans (h2 l))
  case p0 =>
    exact mul_at _ _ _ _ _ (shapeCast_1ab_ab_apply X _ r l) ((tap_row_apply w3 _ _ _ r l).trans (h3 l))

/-! ## The store over rows 0 … 7 -/

/-- The first eight rows of the tile, as the body cuts them out. -/
theorem top_rows_apply (X : FVec Ideal S1x4096x256 .f32) (h1 : S1x4096x256.ShapeCasts S4096x256)
    (h2 : S4096x256.Slices ![0, 0] S8x256) (r : Fin 8) (l : Fin 256) :
    extractStridedSlice S8x256 ![0, 0] (shapeCast S4096x256 X h1) h2 (ix2 r l)
      = X (ix3 0 ⟨r.val, by have := r.isLt; omega⟩ l) :=
  (slice2_axis0_apply 0 _ h2 r l ⟨r.val, by have := r.isLt; omega⟩ (by show r.val = 0 + r.val; omega)).trans
    (shapeCast_1ab_ab_apply X h1 _ l)

/-- Among eight rows and shifts below four, the signed comparison of the row number with the shift, as 32-bit words,
    is the comparison of the numbers. -/
theorem row_lt_shift : ∀ (r : Fin 8) (s : Fin 4),
    IntOp.cmpi .slt (BitVec.ofNat 32 r.val) (BitVec.ofNat 32 s.val) = if r.val < s.val then 1#1 else 0#1 := by decide

/-- THE MASKED SHIFT: the eight rows rotated down by `s`, with zero wherever the row number is below `s`, is the tile's
    sample `s` rows back, zero before the first row. -/
theorem masked_is_past (X : FVec Ideal S1x4096x256 .f32) (h1 : S1x4096x256.ShapeCasts S4096x256)
    (h2 : S4096x256.Slices ![0, 0] S8x256) (h : S8x256.Rotates 0 none)
    (rows : IVec S8x256 32) (hrows : ∀ (r : Fin 8) (l : Fin 256), rows (ix2 r l) = BitVec.ofNat 32 r.val)
    (s : Fin 4) (hs : 1 ≤ s.val) (sb : BitVec 32) (hsb : sb = BitVec.ofNat 32 s.val) (r : Fin 8) (l : Fin 256) :
    select (cmpi .slt rows (broadcast S8x256 sb)) (broadcast S8x256 (Scalar.ofBits (F := Ideal) .f32 0x00000000#32))
        (dynamicRotate 0 sb none (extractStridedSlice S8x256 ![0, 0] (shapeCast S4096x256 X h1) h2) h) (ix2 r l)
      = pastT X ⟨r.val, by have := r.isLt; omega⟩ l s.val := by
  have hr := r.isLt
  have hs4 := s.isLt
  show Scalar.select (IntOp.cmpi .slt (rows (ix2 r l)) sb) (Ideal.ofBits .f32 0x00000000#32)
    (dynamicRotate 0 sb none (extractStridedSlice S8x256 ![0, 0] (shapeCast S4096x256 X h1) h2) h (ix2 r l)) = _
  rw [hrows, hsb, row_lt_shift r s]
  unfold pastT
  by_cases hlt : r.val < s.val
  · rw [if_pos hlt, select_one, Ideal.ofBits_zero_f32, if_neg (show ¬ s.val ≤ r.val by omega)]
  · have hsr : s.val ≤ r.val := by omega
    rw [if_neg hlt, select_zero, if_pos hsr]
    exact (rotate_rows_apply _ _ s.val (by rw [BitVec.toNat_ofNat]; exact Nat.mod_eq_of_lt (by omega)) (by omega) h r l
      ⟨r.val - s.val, by omega⟩ (by show r.val - s.val = (r.val + 8 - s.val) % 8; omega)).trans (top_rows_apply X h1 h2 _ l)

/-- THE STORE OVER ROWS 0 … 7 is the causal filter of the tile on each of them. -/
theorem top_payload_apply (rows : IVec S8x256 32) (hrows : ∀ (r : Fin 8) (l : Fin 256), rows (ix2 r l) = BitVec.ofNat 32 r.val)
    (X : FVec Ideal S1x4096x256 .f32) (w0 w1 w2 w3 : FVec Ideal S1x256 .f32)
    (W : FVec Ideal TileTapShape .f32)
    (h0 : ∀ l, w0 (ix2 0 l) = W (ix2 0 l)) (h1 : ∀ l, w1 (ix2 0 l) = W (ix2 1 l))
    (h2 : ∀ l, w2 (ix2 0 l) = W (ix2 2 l)) (h3 : ∀ l, w3 (ix2 0 l) = W (ix2 3 l))
    (r : Fin 8) (l : Fin 256) :
    k0_pay1 (F := Ideal) (k0_pay6 rows (k0_pay4 X) k0_pay5 w0 w1 w2 w3) (ix3 0 r l)
      = convT X W ⟨r.val, by have := r.isLt; omega⟩ l := by
  unfold k0_pay1 k0_pay6 k0_pay5 k0_pay4 k0_pay2 convT tapSum
  refine (shapeCast_ab_1ab_apply _ _ 0 r l).trans ?_
  refine silu_at _ _ _ ?_
  refine add_at _ _ _ _ _ (add_at _ _ _ _ _ (add_at _ _ _ _ _ (add_at _ _ _ _ _ ?z ?p3) ?p2) ?p1) ?p0
  case z => exact Ideal.ofBits_zero_f32
  case p3 =>
    exact mul_at _ _ _ _ _ (masked_is_past X _ _ _ rows hrows 3 (by decide) 3#32 rfl r l)
      ((tap_row_apply w0 _ _ _ r l).trans (h0 l))
  case p2 =>
    exact mul_at _ _ _ _ _ (masked_is_past X _ _ _ rows hrows 2 (by decide) 2#32 rfl r l)
      ((tap_row_apply w1 _ _ _ r l).trans (h1 l))
  case p1 =>
    exact mul_at _ _ _ _ _ (masked_is_past X _ _ _ rows hrows 1 (by decide) 1#32 rfl r l)
      ((tap_row_apply w2 _ _ _ r l).trans (h2 l))
  case p0 =>
    exact mul_at _ _ _ _ _ (top_rows_apply X _ _ r l) ((tap_row_apply w3 _ _ _ r l).trans (h3 l))

end Cert.KernelIdeal.Payloads

end
-- ==== Proof.KernelTile.lean ====
/-
  What the body leaves in the output tile: the causal filter of the tile it was handed.

  The body's two stores overlap. The later one covers rows 0 … 7 of the output tile and the earlier one the whole
  tile, so an entry of rows 0 … 7 ends at the later store's value and every other entry at the earlier one's.
  The earlier store is wrong exactly on rows 0, 1, 2 — there its rotation wraps the tile's last rows around —, which
  the later store overwrites with the masked values: on every row the entry that survives is the causal
  filter's (TilePayloads.lean). The four tap rows the body loads are the four rows of the staged [4, 256] taps.
-/
import proofs.«162641_j54941221651145_2_alg».proof.Proof.Gen.KernelIdeal.Frame
import proofs.«162641_j54941221651145_2_alg».proof.Proof.TilePayloads
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.ShloMosaic.ValueIdx
open Idealize.ShloMosaic.Tactic Cert.CausalConv Cert.KernelIdeal.Payloads

theorem zero_offsets : (![0, 0, 0] : Fin 3 → Nat) = fun _ => 0 := funext fun a => by fin_cases a <;> rfl

/-- Tap row `k`, loaded through the one-row rectangle at row `k` of the staged taps, reads that row's lane. -/
theorem tap_load_apply (x1 : Vec Ideal S4x256 .f32) (k : Fin 4) (off : Fin 2 → Nat) (h0 : off 0 = k.val) (h1 : off 1 = 0)
    (inb : ∀ a, off a + S1x256.size a ≤ S4x256.size a) (l : Fin 256) :
    View.ld (Val := Elt Ideal) (e' := .f32) x1 (Rect.unit (s := S4x256) off S1x256.size inb) (ix2 0 l) = x1 (ix2 k l) := by
  show x1 ((Rect.unit (s := S4x256) off S1x256.size inb).idx (ix2 0 l)) = _
  refine congrArg x1 (funext fun a => Fin.ext ?_)
  match a with
  | ⟨0, _⟩ => show off 0 + 1 * 0 = k.val; omega
  | ⟨1, _⟩ => show off 1 + 1 * l.val = l.val; omega

/-- THE OUTPUT TILE AFTER THE BODY is the causal filter of the input tile with the staged taps. -/
theorem tile_eq (c : Dev nD) (i : grid0.Coords) (arg2 : Memref sig .tc .vmem S1x4096x256 .f32) (harg2 : arg2.IsWhole)
    (arg3 : Memref sig .tc .vmem S4x256 .f32) (harg3 : arg3.IsWhole) (arg4 : Memref sig .tc .vmem S1x4096x256 .f32)
    (harg4 : arg4.IsWhole) (x0 : Vec Ideal S1x4096x256 .f32) (x1 : Vec Ideal S4x256 .f32) :
    out0_A_2 (F := Ideal) c i arg2 harg2 arg3 harg3 arg4 harg4 x0 x1 = convTile x0 x1 := by
  unfold out0_A_2
  rw [View.read_writes_eq_canon _ _ _ (cover0_A_2 c i arg2 harg2 arg3 harg3 arg4 harg4 x0 x1)]
  unfold kernelRun0_A
  dsimp only
  try sl_unfold_words
  simp only [View.readAt_eq_ld, harg2.read_unread, harg3.read_unread, View.ld_unit_zero (S := S1x4096x256) zero_offsets]
  funext y
  obtain ⟨u, r, l, rfl⟩ : ∃ (u : Fin 1) (r : Fin 4096) (l : Fin 256), y = ix3 u r l := ⟨y 0, y 1, y 2, eq_ix3 y⟩
  obtain rfl : u = 0 := Subsingleton.elim _ _
  by_cases hr : r.val < 8
  · -- a row of the later store
    have hy : ix3 (0 : Fin 1) r l
        = (Rect.unit (s := S1x4096x256) ![0, 0, 0] ![1, 8, 256] inb_S1x4096x256_S1x8x256_0_0_0).emb
            (ix3 (0 : Fin 1) (⟨r.val, hr⟩ : Fin 8) l) :=
      funext fun a => Fin.ext (by
        match a with
        | ⟨0, _⟩ => show 0 = 0 + 1 * 0; omega
        | ⟨1, _⟩ => show r.val = 0 + 1 * r.val; omega
        | ⟨2, _⟩ => show l.val = 0 + 1 * l.val; omega)
    refine (congrArg _ hy).trans ((View.canon_cons_emb _ _ _ _).trans ?_)
    exact top_payload_apply _ (fun r l => iota_single_apply .tc S8x256 32 0 _ (ix2 r l)) x0 _ _ _ _ x1
      (tap_load_apply x1 0 _ rfl rfl _) (tap_load_apply x1 1 _ rfl rfl _) (tap_load_apply x1 2 _ rfl rfl _)
      (tap_load_apply x1 3 _ rfl rfl _) ⟨r.val, hr⟩ l
  · -- a row only the earlier store covers
    refine (View.canon_cons_of_not_mem _ _ ?_).trans ?_
    · rw [Rect.mem_set_unit]
      intro h
      have h1 : (0 : Nat) ≤ r.val ∧ r.val < 0 + 8 := h 1
      omega
    · rw [View.canon_unit_zero zero_offsets]
      exact main_payload_apply x0 _ _ _ _ x1
        (tap_load_apply x1 0 _ rfl rfl _) (tap_load_apply x1 1 _ rfl rfl _) (tap_load_apply x1 2 _ rfl rfl _)
        (tap_load_apply x1 3 _ rfl rfl _) r l (by omega)

end Cert.KernelIdeal.Tile

end
-- ==== Proof.KernelArray.lean ====
/-
  From tiles to the array: after the kernel's run the result array holds the causal filter of the two arguments.

  The grid has 4 × 8 points; point (b, q) is handed batch b, channels 256 q … 256 q + 255 of the sequence — every time
  step of them — and the four tap rows of those channels, read from the taps TRANSPOSED (the one operation of the
  program before the launch: tap k of channel d sits at row k, column d), and writes back the same tile of the result.
  The tile it writes is the causal filter of the tile it was handed (KernelTile.lean), which is the array's causal
  filter on that tile (ConvSpec.lean, `conv_tile`); and the 32 tiles cover the result array.
-/
import proofs.«162641_j54941221651145_2_alg».proof.Proof.Gen.KernelIdeal.Value
import proofs.«162641_j54941221651145_2_alg».proof.Proof.KernelTile
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.CausalConv Cert.KernelIdeal.Tile

variable (m : (ℓ : Loc nD τ sig) → Buf (Elt Ideal) ℓ) (ρ : Dev nD → PrngReg)

/-- The result the run ends with, on core `c`: the causal filter of the two arguments as launched. -/
abbrev result (c : Dev nD) : Buf (Elt Ideal) ((c : Thread nD τ).loc main_v1) :=
  convArray (m ((c : Thread nD τ).loc main_arg0)) (m ((c : Thread nD τ).loc main_arg1))

/-- When the launch begins, the staged-taps array is the tap argument transposed. -/
theorem staged_taps (c : Dev nD) :
    (V m c main_v0 : S4x2048.Idx → Elt Ideal .f32)
      = transpose S4x2048 [1, 0] (m ((c : Thread nD τ).loc main_arg1)) transposes_S2048x4_S4x2048_1_0 := by
  dsimp only [Gen.V, Gen.hostOps0]; after_results

/-- The three windows' tile numbers, decided over the 32 points: the sequence's and the result's tiles are the same
    (batch, 0, channel tile), the taps' is (0, channel tile). -/
theorem index_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 2) = 0 ∧ win0_1.index t (1 : Fin 2) = win0_2.index t (2 : Fin 3)
    ∧ win0_2.index t (0 : Fin 3) ≤ 3 ∧ win0_2.index t (1 : Fin 3) = 0 ∧ win0_2.index t (2 : Fin 3) ≤ 7 :=
  (by decide +kernel : ∀ t : Fin grid0.N, _)

/-- Every (batch, channel tile) is some point's. -/
theorem index_onto : ∀ (b : Fin 4) (q : Fin 8), ∃ t : Fin cfg0.N, win0_2.index t = ![b.val, 0, q.val] :=
  (by decide +kernel : ∀ (b : Fin 4) (q : Fin 8), ∃ t : Fin grid0.N, win0_2.index t = ![b.val, 0, q.val])

/-- The sequence tile handed to point `t`, entry by entry, is the argument at tile number × tile size + the entry's place. -/
theorem seq_block_apply (c : Dev nD) (t : Fin cfg0.N) (y : S1x4096x256.Idx) (k : S4x4096x2048.Idx)
    (h0 : win0_0.index t (0 : Fin 3) * 1 + 1 * (y 0).val = (k 0).val)
    (h1 : win0_0.index t (1 : Fin 3) * 4096 + 1 * (y 1).val = (k 1).val)
    (h2 : win0_0.index t (2 : Fin 3) * 256 + 1 * (y 2).val = (k 2).val) :
    (iblk m c 0 t : Vec Ideal S1x4096x256 .f32) y
      = (m ((c : Thread nD τ).loc main_arg0) : S4x4096x2048.Idx → Elt Ideal .f32) k := by
  unfold iblk
  rw [View.read_apply]
  show V m c main_arg0 _ = _
  rw [V_main_arg0]
  refine congrArg _ (funext fun a => Fin.ext ?_)
  match a with
  | ⟨0, _⟩ => exact h0
  | ⟨1, _⟩ => exact h1
  | ⟨2, _⟩ => exact h2

/-- The tap rows handed to point `t`: tap `k`, lane `l` is the tap argument at channel (tile number × 256 + l), tap `k`. -/
theorem tap_block_apply (c : Dev nD) (t : Fin cfg0.N) (k : Fin 4) (l : Fin 256) (d : Fin 2048)
    (h0 : win0_1.index t (0 : Fin 2) = 0) (hd : win0_1.index t (1 : Fin 2) * 256 + 1 * l.val = d.val) :
    (iblk m c 1 t : Vec Ideal S4x256 .f32) (ix2 k l)
      = (m ((c : Thread nD τ).loc main_arg1) : S2048x4.Idx → Elt Ideal .f32) (ix2 d k) := by
  unfold iblk
  rw [View.read_apply]
  show V m c main_v0 _ = _
  rw [staged_taps m c]
  refine (congrArg _ (?_ : _ = ix2 k d)).trans (transpose_ix2_apply _ _ k d)
  refine funext fun a => Fin.ext ?_
  match a with
  | ⟨0, _⟩ => show win0_1.index t (0 : Fin 2) * 4 + 1 * k.val = k.val; omega
  | ⟨1, _⟩ => exact hd

/-- WHAT POINT `t` WRITES BACK is its tile of the result. -/
theorem flushed_eq (c : Dev nD) (t : Fin cfg0.N) :
    (dats m 0 c).flushed 2 t = ((cfg0.win 2).blk t).view.read (Elt Ideal) (result m c) := by
  rw [flushed2_A m c t, tile_eq c (grid0.coords t) (ms0_0 t) (hs0_0 t) (ms0_1 t) (hs0_1 t) (ms0_2 t) (hs0_2 t)
    (iblk m c 0 t) (iblk m c 1 t)]
  obtain ⟨e00, e01, e02, e10, e11, hb, e21, hq⟩ := index_facts t
  funext j
  have hj0 : (j 0).val < 1 := (j 0).isLt
  have hj1 : (j 1).val < 4096 := (j 1).isLt
  have hj2 : (j 2).val < 256 := (j 2).isLt
  show convT (iblk m c 0 t) (iblk m c 1 t) (j 1) (j 2)
    = conv (m ((c : Thread nD τ).loc main_arg0)) (m ((c : Thread nD τ).loc main_arg1))
        ((((cfg0.win 2).blk t).view.emb j) 0) ((((cfg0.win 2).blk t).view.emb j) 1) ((((cfg0.win 2).blk t).view.emb j) 2)
  have k0 : (((cfg0.win 2).blk t).view.emb j) 0 = (⟨win0_2.index t (0 : Fin 3), by omega⟩ : Fin 4) :=
    Fin.ext (by show win0_2.index t (0 : Fin 3) * 1 + 1 * (j 0).val = win0_2.index t (0 : Fin 3); omega)
  have k1 : (((cfg0.win 2).blk t).view.emb j) 1 = (⟨(j 1).val, hj1⟩ : Fin 4096) :=
    Fin.ext (by show win0_2.index t (1 : Fin 3) * 4096 + 1 * (j 1).val = (j 1).val; omega)
  have k2 : (((cfg0.win 2).blk t).view.emb j) 2
      = (⟨256 * win0_2.index t (2 : Fin 3) + (j 2).val, by omega⟩ : Fin 2048) :=
    Fin.ext (by show win0_2.index t (2 : Fin 3) * 256 + 1 * (j 2).val = 256 * win0_2.index t (2 : Fin 3) + (j 2).val; omega)
  rw [k0, k1, k2]
  exact conv_tile _ _ (iblk m c 0 t) (iblk m c 1 t) ⟨win0_2.index t (0 : Fin 3), by omega⟩ ⟨win0_2.index t (2 : Fin 3), by omega⟩
    (fun r l => seq_block_apply m c t (ix3 0 r l) _
      (by show win0_0.index t (0 : Fin 3) * 1 + 1 * 0 = win0_2.index t (0 : Fin 3); omega)
      (by show win0_0.index t (1 : Fin 3) * 4096 + 1 * r.val = r.val; omega)
      (by show win0_0.index t (2 : Fin 3) * 256 + 1 * l.val = 256 * win0_2.index t (2 : Fin 3) + l.val; omega))
    (fun k l => tap_block_apply m c t k l _ e10
      (by show win0_1.index t (1 : Fin 2) * 256 + 1 * l.val = 256 * win0_2.index t (2 : Fin 3) + l.val; omega))
    ⟨(j 1).val, hj1⟩ ⟨(j 2).val, hj2⟩

/-- An entry of the result array is in point `t`'s tile iff each coordinate is in the tile's range on its axis. -/
theorem mem_tile (t : Fin cfg0.N) (i : S4x4096x2048.Idx) :
    i ∈ ((cfg0.win 2).blk t).view.set ↔ ∀ a : Fin 3, win0_2.index t a * S1x4096x256.size a ≤ (i a).val
      ∧ (i a).val < win0_2.index t a * S1x4096x256.size a + S1x4096x256.size a := by
  show i ∈ ((View.whole main_v1).slice (win0_2.rect t)).set ↔ _
  rw [View.set_slice_whole, Rect.mem_set_unit]
  exact Iff.rfl

/-- THE TILES COVER THE RESULT: entry (b, t, d) is in the tile of the point with batch b and channel tile d / 256. -/
theorem covered (i : S4x4096x2048.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 2048 := (i 2).isLt
  obtain ⟨t, ht⟩ := index_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_tile]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 4096 ≤ (i 1).val ∧ (i 1).val < win0_2.index t (1 : Fin 3) * 4096 + 4096
    omega
  | ⟨2, _⟩ =>
    show win0_2.index t (2 : Fin 3) * 256 ≤ (i 2).val ∧ (i 2).val < win0_2.index t (2 : Fin 3) * 256 + 256
    omega

/-- THE RESULT ARRAY AFTER THE RUN is the causal filter of the arguments. -/
theorem final (c : Dev nD) : (dats m 0 c).arrAt 2 cfg0.N = result m c :=
  (dats m 0 c).arrAt_eq_of_cover 2 (result m c) (fun t _ => flushed_eq m c t) covered

/-- The kernel's run, read: every weakly fair execution ends with the result array at the causal filter of the two
    arguments, and the arguments as launched. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefIsConv.lean ====
/-
  The reference computes the causal filter of ConvSpec.lean.

  It pads the sequence with three zeros in front along time, so that entry u of the padded sequence is x at time
  u - 3 and zero for u < 3 (`padded_apply`); tap k multiplies the padded sequence from entry k on, i.e. at output
  time t the entry k + t — the sample 3 - k steps before t —, by the channel's tap w[d, k], broadcast over batch and
  time; the four products are added in the order k = 0, 1, 2, 3 onto a zero; and the result a is multiplied by
  1 / (1 + e^(-a)), which is the logistic function by its definition on the extended reals.
-/
import proofs.«162641_j54941221651145_2_alg».proof.Proof.Gen.ReferenceIdeal.Read
import proofs.«162641_j54941221651145_2_alg».proof.Proof.ConvSpec
import Idealize.ShloMosaic.Lib.KernelVsHost
import Idealize.ShloMosaic.Lib.IdealHost

noncomputable section

namespace Cert.ReferenceIdeal.AsConv

open Cert.ReferenceIdeal Cert.ReferenceIdeal.Gen Cert.ReferenceIdeal.Read Idealize.ShloMosaic Idealize.ShloMosaic.TcCoe
open Idealize.ShloMosaic.ValueIdx Cert.CausalConv

/-- THE PADDED SEQUENCE at batch `b`, entry `k + t`, channel `d` is the sample `3 - k` steps before time `t`: x at time
    k + t - 3 when that is a time of the sequence, the padding value — the integer zero converted — before. -/
theorem padded_apply (x : FVec Ideal SeqShape .f32) (b : Fin 4) (t : Fin 4096) (d : Fin 2048) (k : Nat) (hk : k ≤ 3)
    (j : S4x4099x2048.Idx) (h0 : (j 0).val = b.val) (h1 : (j 1).val = k + t.val) (h2 : (j 2).val = d.val) :
    val_main_v0 (F := Ideal) x j = past x b t d (3 - k) := by
  unfold val_main_v0 past
  by_cases h : 3 - k ≤ t.val
  · rw [if_pos h]
    exact pad_apply_of_inside _ _ _ x _ pads_S4x4096x2048_S4x4099x2048_000_300_000 h_S_ j _ (fun a => match a with
      | ⟨0, _⟩ => by show (j 0).val = 0 + b.val * (0 + 1); omega
      | ⟨1, _⟩ => by show (j 1).val = 3 + (t.val - (3 - k)) * (0 + 1); omega
      | ⟨2, _⟩ => by show (j 2).val = 0 + d.val * (0 + 1); omega)
  · rw [if_neg h]
    refine (pad_apply_of_not_inside _ _ _ x _ pads_S4x4096x2048_S4x4099x2048_000_300_000 h_S_ j (1 : Fin 3) ?_).trans ?_
    · show ¬(3 ≤ (j 1).val ∧ ((j 1).val - 3) % (0 + 1) = 0 ∧ ((j 1).val - 3) / (0 + 1) < 4096)
      omega
    · show ((((0#32 : BitVec 32).toInt : ℤ) : ℝ) : EReal) = 0
      simp

/-- The four products, added: the reference's accumulated value at (b, t, d). -/
theorem acc_apply (x : FVec Ideal SeqShape .f32) (w : FVec Ideal TapShape .f32) (b : Fin 4) (t : Fin 4096) (d : Fin 2048) :
    val_main_v29 (F := Ideal) x w (ix3 b t d)
      = tapSum (past x b t d 3) (past x b t d 2) (past x b t d 1) (x (ix3 b t d))
          (w (ix2 d 0)) (w (ix2 d 1)) (w (ix2 d 2)) (w (ix2 d 3)) := by
  rw [val_main_v29_apply, val_main_v22_apply, val_main_v15_apply, val_main_v8_apply, val_main_v7_apply, val_main_cst_apply,
    val_main_v6_apply, val_main_v14_apply, val_main_v21_apply, val_main_v28_apply,
    val_main_v1_apply, val_main_v9_apply, val_main_v16_apply, val_main_v23_apply,
    val_main_v5_apply, val_main_v4_apply, val_main_v3_apply, val_main_v2_apply,
    val_main_v13_apply, val_main_v12_apply, val_main_v11_apply, val_main_v10_apply,
    val_main_v20_apply, val_main_v19_apply, val_main_v18_apply, val_main_v17_apply,
    val_main_v27_apply, val_main_v26_apply, val_main_v25_apply, val_main_v24_apply]
  rw [padded_apply x b t d 0 (by omega) _ rfl (by show t.val = 0 + t.val; omega) rfl,
    padded_apply x b t d 1 (by omega) _ rfl rfl rfl,
    padded_apply x b t d 2 (by omega) _ rfl rfl rfl,
    padded_apply x b t d 3 (by omega) _ rfl rfl rfl]
  have e0 : idx_main_v2 (idx_main_v3 (idx_main_v4 (idx_main_v5 (ix3 b t d)))) = ix2 d 0 :=
    funext fun a => Fin.ext (by match a with | ⟨0, _⟩ => exact Nat.div_one _ | ⟨1, _⟩ => rfl)
  have e1 : idx_main_v10 (idx_main_v11 (idx_main_v12 (idx_main_v13 (ix3 b t d)))) = ix2 d 1 :=
    funext fun a => Fin.ext (by match a with | ⟨0, _⟩ => exact Nat.div_one _ | ⟨1, _⟩ => rfl)
  have e2 : idx_main_v17 (idx_main_v18 (idx_main_v19 (idx_main_v20 (ix3 b t d)))) = ix2 d 2 :=
    funext fun a => Fin.ext (by match a with | ⟨0, _⟩ => exact Nat.div_one _ | ⟨1, _⟩ => rfl)
  have e3 : idx_main_v24 (idx_main_v25 (idx_main_v26 (idx_main_v27 (ix3 b t d)))) = ix2 d 3 :=
    funext fun a => Fin.ext (by match a with | ⟨0, _⟩ => exact Nat.div_one _ | ⟨1, _⟩ => rfl)
  rw [e0, e1, e2, e3]
  show (((Ideal.ofBits .f32 0x00000000#32 + past x b t d 3 * w (ix2 d 0)) + past x b t d 2 * w (ix2 d 1))
      + past x b t d 1 * w (ix2 d 2)) + past x b t d 0 * w (ix2 d 3) = _
  rw [Ideal.ofBits_zero_f32, past_zero]
  rfl

/-- THE REFERENCE'S RESULT IS THE CAUSAL FILTER: its last stage, as a function of the two arguments, is `convArray`. -/
theorem ref_is_conv (x : FVec Ideal SeqShape .f32) (w : FVec Ideal TapShape .f32) :
    val_main_v30 (F := Ideal) x w = convArray x w := by
  funext i
  obtain ⟨b, t, d, rfl⟩ : ∃ (b : Fin 4) (t : Fin 4096) (d : Fin 2048), i = ix3 b t d := ⟨i 0, i 1, i 2, eq_ix3 i⟩
  rw [val_main_v30_apply, val_main_call1_v5_apply, val_main_call1_v4_apply, val_main_call1_cst_0_apply,
    val_main_call1_v3_apply, val_main_call1_v2_apply, val_main_call1_cst_apply, val_main_call1_v1_apply,
    val_main_call1_v0_apply, acc_apply]
  simp only [Ideal.ofBits_def, Ideal.ofBits_one_f32, Ideal.hostDivf_def, Ideal.hostUnary_exp_def, Ideal.hostNegf_def,
    Ideal.negf_def, Ideal.mulf_def, Ideal.addf_def]
  rfl

end Cert.ReferenceIdeal.AsConv

end
-- ==== Proof.lean ====
/-
  A depthwise causal convolution along time with four taps, followed by a · σ(a), computed by a tiled kernel, against
  the same function written with a zero-padded sequence and four shifted slices: equal on the extended reals.

  Both programs compute, at batch b, time t, channel d,
      a = (((0 + x̃(b, t-3, d) · w(d, 0)) + x̃(b, t-2, d) · w(d, 1)) + x̃(b, t-1, d) · w(d, 2)) + x(b, t, d) · w(d, 3),
  x̃ the sequence extended by zero to negative times, and then a · σ(a), σ(a) = 1 / (1 + e^(-a)) (ConvSpec.lean). They
  add the four products in the same order, so no law of arithmetic is needed beyond reading each side entry by entry:
  the proof never uses that the inputs are finite.

  * The reference pads three zeros in front of the time axis and multiplies four shifted slices of the padded sequence
    by the taps; its logistic function is spelled 1 / (1 + e^(-a)), which on the extended reals is the definition of
    the kernel's logistic operation (RefIsConv.lean).
  * The kernel works tile by tile — one batch, all 4096 time steps, 256 channels. It shifts along time by ROTATING the
    tile's rows, which is the causal shift from row 3 on and wraps the tile's last rows into rows 0, 1, 2; it then
    recomputes rows 0 … 7 from the first eight rows with the wrapped entries masked to zero and stores them over the
    first result (TilePayloads.lean, KernelTile.lean). Because a tile holds every time step of its channels, the
    tile's filter is the array's filter on that tile, and the 32 tiles cover the result (KernelArray.lean).

  The three frame claims are the generated frame proofs (the reference's is its generated run with the result
  dropped); the idealization rewrote nothing, so that claim is trivial.
-/
import proofs.«162641_j54941221651145_2_alg».proof.Defs
import proofs.«162641_j54941221651145_2_alg».proof.Proof.Gen.Kernel
import proofs.«162641_j54941221651145_2_alg».proof.Proof.Gen.Kernel.Skeleton
import proofs.«162641_j54941221651145_2_alg».proof.Proof.Gen.Kernel.Launch
import proofs.«162641_j54941221651145_2_alg».proof.Proof.Gen.Kernel.Points
import proofs.«162641_j54941221651145_2_alg».proof.Proof.Gen.Kernel.Frame
import proofs.«162641_j54941221651145_2_alg».proof.Proof.Gen.KernelIdeal
import proofs.«162641_j54941221651145_2_alg».proof.Proof.Gen.KernelIdeal.Skeleton
import proofs.«162641_j54941221651145_2_alg».proof.Proof.Gen.KernelIdeal.Launch
import proofs.«162641_j54941221651145_2_alg».proof.Proof.Gen.KernelIdeal.Points
import proofs.«162641_j54941221651145_2_alg».proof.Proof.Gen.KernelIdeal.Frame
import proofs.«162641_j54941221651145_2_alg».proof.Proof.Gen.ReferenceIdeal
import proofs.«162641_j54941221651145_2_alg».proof.Proof.Gen.Pre_finite_inputs
import proofs.«162641_j54941221651145_2_alg».proof.Proof.Gen.KernelIdeal.Value
import proofs.«162641_j54941221651145_2_alg».proof.Proof.Gen.ReferenceIdeal.Run
import proofs.«162641_j54941221651145_2_alg».proof.Proof.Gen.ReferenceIdeal.Read
import proofs.«162641_j54941221651145_2_alg».proof.Proof.KernelArray
import proofs.«162641_j54941221651145_2_alg».proof.Proof.RefIsConv
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the causal
    filter of those arguments, entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.AsConv.ref_is_conv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
